-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S50000x64 .f32) (main_arg2 : FVec F S192x128 .f32) (main_arg3 : FVec F S128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S128x128 : Shape := ⟨2, ![128, 128]⟩
abbrev S64x128 : Shape := ⟨2, ![64, 128]⟩
abbrev S2000x128 : Shape := ⟨2, ![2000, 128]⟩
abbrev S2000x64 : Shape := ⟨2, ![2000, 64]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 35
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S192x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S64x128, .f32⟩
  | .hbm, ⟨8, _⟩ => ⟨S50000x128, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .bf16⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S128x128, .f32⟩
  | .local _ .vmem, ⟨5, _⟩ => ⟨S64x128, .f32⟩
  | .local _ .vmem, ⟨6, _⟩ => ⟨S128, .f32⟩
  | .local _ .vmem, ⟨7, _⟩ => ⟨S2000x128, .bf16⟩
  | .local _ .vmem, ⟨8, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S192x128_S128x128_0_0 : S192x128.Slices ![0, 0] S128x128
  slices_S192x128_S64x128_128_0 : S192x128.Slices ![128, 0] S64x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S192x128 : Shape := ⟨2, ![192, 128]⟩
abbrev S128 : Shape := ⟨1, ![128]⟩
abbrev S800000 : Shape := ⟨1, ![800000]⟩
abbrev S50000x192 : Shape := ⟨2, ![50000, 192]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S192x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S50000x192, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  concatenates_S50000x128_S50000x64_S50000x192_d1 : Shape.Concatenates [S50000x128, S50000x64] S50000x192 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelPayload.lean ====
/-
  What the kernel body stores at one grid point, read entry by entry over the extended reals.

  The body loads a 2000-row block of features and of anchor distances, the two parts of the weight matrix
  (its first 128 rows and its last 64) and the bias; it multiplies the feature block by the first part and the
  anchor block by the second, adds the two products, adds the bias along the columns, and takes the maximum
  with zero.  The changes of float format on the way are the identity on extended reals, each matrix product into
  a zero accumulator is the plain sum of products over the contracted axis, and the bias — a vector given a
  leading unit axis and then repeated down the rows — is read at the column.  So entry (p, q) of the stored block
  is  max((∑_{k<128} x0(p,k)·x2(k,q) + ∑_{k<64} x1(p,k)·x3(k,q)) + x4 q, 0).
-/
import proofs.«110895_j69793218560330_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The contraction of the feature block (2000 × 128) with the first part of the weights (128 × 128). -/
abbrev dotF : DotDims S2000x128 S128x128 S2000x128 := dot_S2000x128_S128x128_S2000x128_1_0_0_1_n_n
/-- The contraction of the anchor block (2000 × 64) with the second part of the weights (64 × 128). -/
abbrev dotA : DotDims S2000x64 S64x128 S2000x128 := dot_S2000x64_S64x128_S2000x128_1_0_0_1_n_n

/-! ## The operand indices of the two products, coordinate by coordinate -/

theorem dotF_lhs_row (j : S2000x128.Idx) (k : dotF.contr.Idx) : (dotF.lhsIdx j k 0).val = (j 0).val := by
  unfold DotDims.lhsIdx
  rw [dif_neg (show ¬(0 : Fin S2000x128.rank) ∈ dotF.lhsBatch by decide),
    dif_pos (show (0 : Fin S2000x128.rank) ∈ dotF.lhsNonContracting by decide)]
  rfl
theorem dotF_lhs_col (j : S2000x128.Idx) (k : dotF.contr.Idx) : (dotF.lhsIdx j k 1).val = (k ⟨0, by decide⟩).val :=
  dotF.lhsIdx_val_of_single rfl j k
theorem dotF_rhs_row (j : S2000x128.Idx) (k : dotF.contr.Idx) : (dotF.rhsIdx j k 0).val = (k ⟨0, by decide⟩).val :=
  dotF.rhsIdx_val_of_single rfl j k
theorem dotF_rhs_col (j : S2000x128.Idx) (k : dotF.contr.Idx) : (dotF.rhsIdx j k 1).val = (j 1).val := by
  unfold DotDims.rhsIdx
  rw [dif_neg (show ¬(1 : Fin S128x128.rank) ∈ dotF.rhsBatch by decide),
    dif_pos (show (1 : Fin S128x128.rank) ∈ dotF.rhsNonContracting by decide)]
  rfl

theorem dotA_lhs_row (j : S2000x128.Idx) (k : dotA.contr.Idx) : (dotA.lhsIdx j k 0).val = (j 0).val := by
  unfold DotDims.lhsIdx
  rw [dif_neg (show ¬(0 : Fin S2000x64.rank) ∈ dotA.lhsBatch by decide),
    dif_pos (show (0 : Fin S2000x64.rank) ∈ dotA.lhsNonContracting by decide)]
  rfl
theorem dotA_lhs_col (j : S2000x128.Idx) (k : dotA.contr.Idx) : (dotA.lhsIdx j k 1).val = (k ⟨0, by decide⟩).val :=
  dotA.lhsIdx_val_of_single rfl j k
theorem dotA_rhs_row (j : S2000x128.Idx) (k : dotA.contr.Idx) : (dotA.rhsIdx j k 0).val = (k ⟨0, by decide⟩).val :=
  dotA.rhsIdx_val_of_single rfl j k
theorem dotA_rhs_col (j : S2000x128.Idx) (k : dotA.contr.Idx) : (dotA.rhsIdx j k 1).val = (j 1).val := by
  unfold DotDims.rhsIdx
  rw [dif_neg (show ¬(1 : Fin S64x128.rank) ∈ dotA.rhsBatch by decide),
    dif_pos (show (1 : Fin S64x128.rank) ∈ dotA.rhsNonContracting by decide)]
  rfl

/-! ## The two products at an entry -/

/-- The feature product into a zero accumulator, at entry (p, q): the sum over the 128 features. -/
theorem feature_product (a : FVec Ideal S2000x128 .bf16) (w : FVec Ideal S128x128 .bf16) (p : Fin 2000) (q : Fin 128) :
    matmul (F := Ideal) dotF none a w (constant (F := Ideal) S2000x128 .f32 0x00000000#32) (ix2 p q)
      = ∑ k : Fin 128, a (ix2 p k) * w (ix2 k q) := by
  show FloatOps.matmul dotF none a w (constant (F := Ideal) S2000x128 .f32 0x00000000#32) (ix2 p q) = _
  rw [Ideal.matmul_constant_zero_apply, ← Equiv.sum_comp (contrEquiv1 dotF 128 rfl rfl).symm]
  refine Finset.sum_congr rfl fun k _ => ?_
  have hk := contrEquiv1_symm_val dotF 128 rfl rfl k
  have el : dotF.lhsIdx (ix2 p q) ((contrEquiv1 dotF 128 rfl rfl).symm k) = ix2 p k := funext fun ax => Fin.ext (by
    match ax with
    | ⟨0, _⟩ => exact dotF_lhs_row _ _
    | ⟨1, _⟩ => exact (dotF_lhs_col _ _).trans hk)
  have er : dotF.rhsIdx (ix2 p q) ((contrEquiv1 dotF 128 rfl rfl).symm k) = ix2 k q := funext fun ax => Fin.ext (by
    match ax with
    | ⟨0, _⟩ => exact (dotF_rhs_row _ _).trans hk
    | ⟨1, _⟩ => exact dotF_rhs_col _ _)
  rw [el, er]

/-- The anchor product into a zero accumulator, at entry (p, q): the sum over the 64 anchors. -/
theorem anchor_product (a : FVec Ideal S2000x64 .bf16) (w : FVec Ideal S64x128 .bf16) (p : Fin 2000) (q : Fin 128) :
    matmul (F := Ideal) dotA none a w (constant (F := Ideal) S2000x128 .f32 0x00000000#32) (ix2 p q)
      = ∑ k : Fin 64, a (ix2 p k) * w (ix2 k q) := by
  show FloatOps.matmul dotA none a w (constant (F := Ideal) S2000x128 .f32 0x00000000#32) (ix2 p q) = _
  rw [Ideal.matmul_constant_zero_apply, ← Equiv.sum_comp (contrEquiv1 dotA 64 rfl rfl).symm]
  refine Finset.sum_congr rfl fun k _ => ?_
  have hk := contrEquiv1_symm_val dotA 64 rfl rfl k
  have el : dotA.lhsIdx (ix2 p q) ((contrEquiv1 dotA 64 rfl rfl).symm k) = ix2 p k := funext fun ax => Fin.ext (by
    match ax with
    | ⟨0, _⟩ => exact dotA_lhs_row _ _
    | ⟨1, _⟩ => exact (dotA_lhs_col _ _).trans hk)
  have er : dotA.rhsIdx (ix2 p q) ((contrEquiv1 dotA 64 rfl rfl).symm k) = ix2 k q := funext fun ax => Fin.ext (by
    match ax with
    | ⟨0, _⟩ => exact (dotA_rhs_row _ _).trans hk
    | ⟨1, _⟩ => exact dotA_rhs_col _ _)
  rw [el, er]

/-- The bias, given a leading unit axis and repeated down the 2000 rows, read at entry (p, q) is `b q`. -/
theorem bias_row (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-! ## The stored block at an entry -/

/-- ENTRY (p, q) OF THE BLOCK THE BODY STORES, from the five blocks it loaded. -/
theorem stored_apply (x0 : FVec Ideal S2000x128 .f32) (x1 : FVec Ideal S2000x64 .f32) (x2 : FVec Ideal S128x128 .f32)
    (x3 : FVec Ideal S64x128 .f32) (x4 : FVec Ideal S128 .f32) (p : Fin 2000) (q : Fin 128) :
    k0_pay1 (F := Ideal) x0 x1 x2 x3 x4 (ix2 p q)
      = max ((∑ k : Fin 128, x0 (ix2 p k) * x2 (ix2 k q) + ∑ k : Fin 64, x1 (ix2 p k) * x3 (ix2 k q)) + x4 (ix1 q))
          (Ideal.ofBits .f32 0x00000000#32) := by
  unfold k0_pay1
  rw [shapeCast_self, shapeCast_self]
  show max ((matmul (F := Ideal) dotF none (truncf .bf16 x0 _) (truncf .bf16 x2 _) (constant (F := Ideal) S2000x128 .f32 0x00000000#32) (ix2 p q)
        + matmul (F := Ideal) dotA none (truncf .bf16 x1 _) (truncf .bf16 x3 _) (constant (F := Ideal) S2000x128 .f32 0x00000000#32) (ix2 p q))
      + broadcastTo S2000x128 (shapeCast S1x128 x4 shapeCasts_S128_S1x128) broadcasts_S1x128_S2000x128 (ix2 p q))
    (Ideal.ofBits .f32 0x00000000#32) = _
  rw [feature_product, anchor_product, bias_row]
  rfl

end Cert.KernelIdeal.Payload

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.Hidden.lean ====
/-
  The hidden layer both programs compute before the aggregation, as one function of the four float arguments,
  entry by entry over the extended reals.

  Entry (r, q) of the layer is  max(s + b q, 0)  where  s  is the inner product of row r of the node data with
  column q of the weights.  The node data of a row are its 128 features followed by its 64 anchor distances, and
  the weight matrix has 192 rows: the first 128 meet the features, the last 64 the anchor distances.  Written
  with the contraction split at 128, s = ∑_{k<128} f(r,k)·W(k,q) + ∑_{k<64} a(r,k)·W(128+k,q); written over the
  concatenated row, s = ∑_{k<192} cat(r,k)·W(k,q).  The two agree by splitting the sum (associativity and
  commutativity of addition only: no entry needs to be finite).
-/
import Idealize.ShloMosaic.PureOps.Ideal
import Idealize.ShloMosaic.Lib.ValueIdx
import proofs.«110895_j69793218560330_2_alg».proof.Proof.LibSumSplit

noncomputable section

namespace Cert.Hidden

open Idealize.ShloMosaic Idealize.ShloMosaic.ValueIdx

/-- Row `k` of the weight matrix among its first 128 rows. -/
abbrev wTop (k : Fin 128) : Fin 192 := ⟨k.val, by have := k.isLt; omega⟩
/-- Row `128 + k` of the weight matrix: its last 64 rows. -/
abbrev wBot (k : Fin 64) : Fin 192 := ⟨128 + k.val, by have := k.isLt; omega⟩

/-- Entry (r, q) of the hidden layer with the contraction split into the feature part and the anchor part. -/
def entry (f : (⟨2, ![50000, 128]⟩ : Shape).Idx → EReal) (a : (⟨2, ![50000, 64]⟩ : Shape).Idx → EReal)
    (W : (⟨2, ![192, 128]⟩ : Shape).Idx → EReal) (b : (⟨1, ![128]⟩ : Shape).Idx → EReal)
    (r : Fin 50000) (q : Fin 128) : EReal :=
  max ((∑ k : Fin 128, f (ix2 r k) * W (ix2 (wTop k) q) + ∑ k : Fin 64, a (ix2 r k) * W (ix2 (wBot k) q)) + b (ix1 q))
    (Ideal.ofBits .f32 0x00000000#32)

/-- The hidden layer as an array. -/
def layer (f : (⟨2, ![50000, 128]⟩ : Shape).Idx → EReal) (a : (⟨2, ![50000, 64]⟩ : Shape).Idx → EReal)
    (W : (⟨2, ![192, 128]⟩ : Shape).Idx → EReal) (b : (⟨1, ![128]⟩ : Shape).Idx → EReal) :
    (⟨2, ![50000, 128]⟩ : Shape).Idx → EReal :=
  fun i => entry f a W b (i 0) (i 1)

theorem layer_apply (f : (⟨2, ![50000, 128]⟩ : Shape).Idx → EReal) (a : (⟨2, ![50000, 64]⟩ : Shape).Idx → EReal)
    (W : (⟨2, ![192, 128]⟩ : Shape).Idx → EReal) (b : (⟨1, ![128]⟩ : Shape).Idx → EReal) (r : Fin 50000) (q : Fin 128) :
    layer f a W b (ix2 r q) = entry f a W b r q := rfl

/-- The contraction over the concatenated row, split at 128: for any family `g` of 192 products,
    the whole sum is the sum of the first 128 plus the sum of the last 64. -/
theorem contraction_split (g : Fin 192 → EReal) :
    ∑ k : Fin 192, g k = ∑ k : Fin 128, g (wTop k) + ∑ k : Fin 64, g (wBot k) :=
  Cert.LibSumSplit.sum_split 128 64 192 rfl g

end Cert.Hidden

end
-- ==== Proof.KernelArray.lean ====
/-
  The array the kernel's region leaves: the hidden layer, as one function of the argument arrays.

  The grid has 25 points.  Point t stages rows 2000·t … 2000·t + 1999 of the features and of the anchor distances,
  the whole of the two parts of the weight matrix and the whole bias, and writes back rows 2000·t … 2000·t + 1999
  of the result.  The two parts of the weight matrix are cut from the argument before the region: rows 0 … 127
  and rows 128 … 191.  So entry (p, q) of the block point t writes back is entry (2000·t + p, q) of the hidden
  layer of `Cert.Hidden`, and since every row of the result lies in exactly the block of point ⌊row / 2000⌋, the
  array after the run is the hidden layer.
-/
import proofs.«110895_j69793218560330_2_alg».proof.Proof.Gen.KernelIdeal.Frame
import proofs.«110895_j69793218560330_2_alg».proof.Proof.KernelPayload
import proofs.«110895_j69793218560330_2_alg».proof.Proof.Hidden
import Idealize.ShloMosaic.Lib.Pipeline.Value
import Idealize.ShloMosaic.Lib.StableHlo.Run
import Idealize.ShloMosaic.Lib.ValueLayout

set_option maxRecDepth 16384

noncomputable section

namespace Cert.KernelIdeal.Array

open Cert.KernelIdeal Cert.KernelIdeal.Gen
open Idealize.ShloMosaic Idealize.ShloMosaic.TcCoe Idealize.SL.Sem Idealize.ShloMosaic.ValueIdx
open Idealize.ShloMosaic.Pipeline (Dat)
open Cert.Hidden

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The hidden layer of core `c`'s four float arguments, typed as the region's result array. -/
abbrev hidden (c : Dev nD) : S50000x128.Idx → EReal :=
  layer (m ((c : Thread nD τ).loc main_arg0)) (m ((c : Thread nD τ).loc main_arg1))
    (m ((c : Thread nD τ).loc main_arg2)) (m ((c : Thread nD τ).loc main_arg3))

/-- Row `p` of point `t`'s block is row `2000·t + p` of the array. -/
def row (t : Fin cfg0.N) (p : Fin 2000) : Fin 50000 :=
  ⟨t.val * 2000 + p.val, by have := t.isLt; have hN : cfg0.N = 25 := N_0; have := p.isLt; omega⟩

/-- The printed index maps, decided over the grid: the row-blocked windows (features, anchor distances, result)
    are at block `t` along the rows at point `t`, and every other block index is zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The two parts of the weight matrix as the region finds them -/

/-- The first part is rows 0 … 127 of the weight argument. -/
theorem weights_top (c : Dev nD) :
    (V m c main_v0 : S128x128.Idx → EReal)
      = extractStridedSlice S128x128 ![0, 0] (m ((c : Thread nD τ).loc main_arg2) : S192x128.Idx → EReal) slices_S192x128_S128x128_0_0 := by
  show StableHlo.after hostOps0 (fun b => m (c, b)) (Proc.devRef .tc main_v0) = _
  after_results

/-- The second part is rows 128 … 191 of the weight argument. -/
theorem weights_bottom (c : Dev nD) :
    (V m c main_v1 : S64x128.Idx → EReal)
      = extractStridedSlice S64x128 ![128, 0] (m ((c : Thread nD τ).loc main_arg2) : S192x128.Idx → EReal) slices_S192x128_S64x128_128_0 := by
  show StableHlo.after hostOps0 (fun b => m (c, b)) (Proc.devRef .tc main_v1) = _
  after_results

/-! ## Each staged block, entry by entry, as entries of the arguments -/

theorem block_features (c : Dev nD) (t : Fin cfg0.N) (p : Fin 2000) (k : Fin 128) :
    (iblk m c 0 t : FVec Ideal S2000x128 .f32) (ix2 p k)
      = (m ((c : Thread nD τ).loc main_arg0) : S50000x128.Idx → EReal) (ix2 (row t p) k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem block_anchors (c : Dev nD) (t : Fin cfg0.N) (p : Fin 2000) (k : Fin 64) :
    (iblk m c 1 t : FVec Ideal S2000x64 .f32) (ix2 p k)
      = (m ((c : Thread nD τ).loc main_arg1) : S50000x64.Idx → EReal) (ix2 (row t p) k) := by
  obtain ⟨-, -, e0, e1, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 64 + 1 * k.val = k.val; rw [e1]; omega

theorem block_weights_top (c : Dev nD) (t : Fin cfg0.N) (k : Fin 128) (q : Fin 128) :
    (iblk m c 2 t : FVec Ideal S128x128 .f32) (ix2 k q)
      = (m ((c : Thread nD τ).loc main_arg2) : S192x128.Idx → EReal) (ix2 (wTop k) q) := by
  obtain ⟨-, -, -, -, e0, e1, -⟩ := block_indices t
  unfold iblk
  rw [View.read_apply]
  show V m c main_v0 _ = _
  rw [weights_top]
  have hemb : ((cfg0.win 2).blk t).view.emb (ix2 k q) = ix2 k q := funext fun a => Fin.ext (by
    match a with
    | ⟨0, _⟩ => show win0_2.index t (0 : Fin 2) * 128 + 1 * k.val = k.val; rw [e0]; omega
    | ⟨1, _⟩ => show win0_2.index t (1 : Fin 2) * 128 + 1 * q.val = q.val; rw [e1]; omega)
  rw [hemb]
  exact slice2_axis0_apply 0 _ slices_S192x128_S128x128_0_0 k q (wTop k) (Nat.zero_add _).symm

theorem block_weights_bottom (c : Dev nD) (t : Fin cfg0.N) (k : Fin 64) (q : Fin 128) :
    (iblk m c 3 t : FVec Ideal S64x128 .f32) (ix2 k q)
      = (m ((c : Thread nD τ).loc main_arg2) : S192x128.Idx → EReal) (ix2 (wBot k) q) := by
  obtain ⟨-, -, -, -, -, -, e0, e1, -⟩ := block_indices t
  unfold iblk
  rw [View.read_apply]
  show V m c main_v1 _ = _
  rw [weights_bottom]
  have hemb : ((cfg0.win 3).blk t).view.emb (ix2 k q) = ix2 k q := funext fun a => Fin.ext (by
    match a with
    | ⟨0, _⟩ => show win0_3.index t (0 : Fin 2) * 64 + 1 * k.val = k.val; rw [e0]; omega
    | ⟨1, _⟩ => show win0_3.index t (1 : Fin 2) * 128 + 1 * q.val = q.val; rw [e1]; omega)
  rw [hemb]
  exact slice2_axis0_apply 128 _ slices_S192x128_S64x128_128_0 k q (wBot k) rfl

theorem block_bias (c : Dev nD) (t : Fin cfg0.N) (q : Fin 128) :
    (iblk m c 4 t : FVec Ideal S128 .f32) (ix1 q)
      = (m ((c : Thread nD τ).loc main_arg3) : S128.Idx → EReal) (ix1 q) := by
  obtain ⟨-, -, -, -, -, -, -, -, e0, -⟩ := block_indices t
  unfold iblk
  rw [View.read_apply]
  show V m c main_arg3 _ = _
  rw [V_main_arg3]
  refine congrArg _ (funext fun a => Fin.ext ?_)
  match a with
  | ⟨0, _⟩ => show win0_4.index t (0 : Fin 1) * 128 + 1 * q.val = q.val; rw [e0]; omega

/-! ## What a point writes back, and the array after the run -/

/-- WHAT POINT `t` WRITES BACK is block `t` of the hidden layer. -/
theorem flushed_eq (c : Dev nD) (t : Fin cfg0.N) :
    (dats m 0 c).flushed 5 t = ((cfg0.win 5).blk t).view.read (Elt Ideal) (hidden m c) := by
  show (cfg0.win 5).cut (grid0.coords t) ((dats m 0 c).after 5 t) = _
  rw [after0_5]
  unfold out0_5
  rw [View.canon_unit_zero hz2]
  simp only [View.ld_unit_zero (S := S2000x128) hz2, View.ld_unit_zero (S := S2000x64) hz2,
    View.ld_unit_zero (S := S128x128) hz2, View.ld_unit_zero (S := S64x128) hz2, View.ld_unit_zero (S := S128) hz1]
  funext j
  obtain ⟨p, q, rfl⟩ : ∃ (p : Fin 2000) (q : Fin 128), j = ix2 p q := ⟨j 0, j 1, eq_ix2 j⟩
  rw [View.read_apply]
  obtain ⟨-, -, -, -, -, -, -, -, -, e0, e1⟩ := block_indices t
  have hemb : ((cfg0.win 5).blk t).view.emb (ix2 p q) = ix2 (row t p) q := funext fun a => Fin.ext (by
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega)
  rw [hemb]
  refine (Payload.stored_apply (iblk m c 0 t) (iblk m c 1 t) (iblk m c 2 t) (iblk m c 3 t) (iblk m c 4 t) p q).trans ?_
  show _ = entry _ _ _ _ (row t p) q
  unfold entry
  refine congrArg₂ max (congrArg₂ (· + ·) (congrArg₂ (· + ·) (Finset.sum_congr rfl fun k _ => ?_)
    (Finset.sum_congr rfl fun k _ => ?_)) ?_) rfl
  · exact congrArg₂ (· * ·) (block_features m c t p k) (block_weights_top m c t k q)
  · exact congrArg₂ (· * ·) (block_anchors m c t p k) (block_weights_bottom m c t k q)
  · exact block_bias m c t q

/-- An index of the result array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v2).slice (win0_5.rect t)).set ↔ _
  rw [View.set_slice_whole, Rect.mem_set_unit]
  exact Iff.rfl

/-- Every index of the result array is in the block of the point its row falls in. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, e0, e1⟩ := block_indices ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

/-- THE REGION'S RESULT ARRAY after the run is the hidden layer of the arguments. -/
theorem result_array (c : Dev nD) : (dats m 0 c).arrAt 5 cfg0.N = hidden m c :=
  (dats m 0 c).arrAt_eq_of_cover 5 (hidden m c) (fun t _ => flushed_eq m c t) covered

end Cert.KernelIdeal.Array

end
-- ==== Proof.Aggregate.lean ====
/-
  The aggregation both programs apply to the hidden layer: the mean of the hidden rows over each node's incoming
  edges.

  An edge e goes from node src e to node dst e.  A negative source index is first moved up by the number of
  nodes; the hidden row of each edge's source is looked up; those rows are added up per destination node, starting
  from zero; the number of edges into each node is counted the same way, by adding ones; and each node's sum is
  divided by its count, or by one where the count is smaller than one.  The lookup, the two sums and the division
  are the host's own operations, and this module never opens them: it only names their composition, as ONE
  function of the hidden layer and the two index arrays, so that two programs applying it to equal hidden layers
  visibly end with equal results.  The rows looked up pass through a change of float format, which is the
  identity on extended reals.
-/
import proofs.«110895_j69793218560330_2_alg».proof.Proof.Gen.KernelIdeal
import Idealize.ShloMosaic.PureOps.Ideal

noncomputable section

namespace Cert.Aggregate

open Cert.KernelIdeal Cert.KernelIdeal.Gen Idealize.ShloMosaic

/-- Each edge's source index, a negative one moved up by the number of nodes, as a column of start indices. -/
def sources (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per node, the number of incoming edges (ones added up per destination) or one, whichever is larger,
    repeated along the node's row. -/
def degrees (dst : IVec S800000 32) : FVec Ideal S50000x128 .f32 :=
  broadcastInDim S50000x128 ![0, 1] bcast_S50000x1_S50000x128_0_1
    (broadcastInDim S50000x1 ![0] bcast_S50000_S50000x1_0
      (maximumf
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))

/-- THE AGGREGATION: per node, the sum of the hidden rows of its incoming edges' sources, divided by the
    node's degree. -/
def mean (h : FVec Ideal S50000x128 .bf16) (src dst : IVec S800000 32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (extf .f32 (Host.gather gather_S50000x128_S800000x1_S800000x128_1_0_n_n_0_1_1128 h (sources src)) bitsLt_bf16_f32))
    (degrees dst)

end Cert.Aggregate

end
-- ==== Proof.KernelTail.lean ====
/-
  The kernel program's result: the aggregation of the hidden layer.

  After the region the program applies the aggregation of `Cert.Aggregate` to three arrays: the region's result,
  the source indices and the destination indices.  The region's result is the hidden layer (`Cert.KernelIdeal.Array`),
  and no line of the program writes an index array, so the program ends with the aggregation of the hidden layer
  of its float arguments over its two index arguments, every argument as launched.
-/
import proofs.«110895_j69793218560330_2_alg».proof.Proof.KernelArray
import proofs.«110895_j69793218560330_2_alg».proof.Proof.Aggregate

set_option maxRecDepth 16384

noncomputable section

namespace Cert.KernelIdeal.Tail

open Cert.KernelIdeal Cert.KernelIdeal.Gen Cert.KernelIdeal.Array
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 2000000 in
/-- The lines after the region, run from any buffer contents `W`, leave in the result buffer the aggregation of
    what `W` holds at the region's result and at the two index arguments. -/
theorem lines_after (W : Valuation τ sig (Elt Ideal)) :
    StableHlo.after hostOps1 W (Proc.devRef .tc main_v22)
      = Cert.Aggregate.mean (W (Proc.devRef .tc main_v2)) (W (Proc.devRef .tc main_arg4)) (W (Proc.devRef .tc main_arg5)) := by
  after_results_simp
  try rfl

/-- THE PROGRAM'S RESULT, as the frame run states it, is the aggregation of the hidden layer. -/
theorem result_eq (c : Dev nD) :
    Pipeline.afterTail₀ cfgs (dats m) 0 (V0 m) [hostOps1] c main_v22
      = Cert.Aggregate.mean (hidden m c) (m ((c : Thread nD τ).loc main_arg4)) (m ((c : Thread nD τ).loc main_arg5)) := by
  unfold Pipeline.afterTail₀
  show StableHlo.after hostOps1 _ (Proc.devRef .tc main_v22) = _
  rw [lines_after]
  refine congr (congr (congrArg Cert.Aggregate.mean ?_) ?_) ?_
  · exact (Pipeline.withArrays_arr spec0 launch0.win.arr_inj c _ _ 5).trans (result_array m c)
  · exact (Pipeline.withArrays_of_ne _ c (V0 m c) _ main_arg4
      (by exact (by decide : ∀ w, Pipeline.arrRef spec0 w ≠ main_arg4))).trans (V_main_arg4 m c)
  · exact (Pipeline.withArrays_of_ne _ c (V0 m c) _ main_arg5
      (by exact (by decide : ∀ w, Pipeline.arrRef spec0 w ≠ main_arg5))).trans (V_main_arg5 m c)

/-- THE RUN, read: every weakly fair execution of the program terminates with the result buffer at the aggregation
    of the hidden layer and every argument as launched. -/
theorem run : θ_run defs (onTc (τ := τ) (main (F := Ideal))) ⟨m, fun _ => 0, ρ⟩ fun r => ∀ c : Dev nD,
      r.2.mem ((c.tc : Thread nD τ).loc main_v22)
        = Cert.Aggregate.mean (hidden m c) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v22 (Pipeline.mem_restRefs_of main_v22 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.RefHidden.lean ====
/-
  The reference's hidden layer.  The reference concatenates each row's 128 features and 64 anchor distances,
  contracts the 192 entries of the row against the weight matrix, adds the bias along the columns and takes the
  maximum with zero.  Read entry by entry, and with the contraction split at 128 — the first 128 entries of a
  concatenated row are the features, the last 64 the anchor distances — this is the hidden layer of
  `Cert.Hidden`.
-/
import proofs.«110895_j69793218560330_2_alg».proof.Proof.Gen.ReferenceIdeal.Read
import proofs.«110895_j69793218560330_2_alg».proof.Proof.Hidden

noncomputable section

namespace Cert.ReferenceIdeal.RefHidden

open Cert.ReferenceIdeal Cert.ReferenceIdeal.Gen Cert.ReferenceIdeal.Read
open Idealize.ShloMosaic Idealize.ShloMosaic.ValueIdx Cert.Hidden

/-- Among the first 128 entries of a concatenated row sits the feature row. -/
theorem cat_features (x0 : FVec Ideal S50000x128 .f32) (x1 : FVec Ideal S50000x64 .f32)
    (r : Fin 50000) (q : Fin 128) (k : Fin 128) :
    val_main_v0 (F := Ideal) x0 x1 (lidx_main_v1 (ix2 r q) (wTop k)) = x0 (ix2 r k) := by
  unfold val_main_v0
  exact concatenate_pair_apply_left (t := S50000x192) (1 : Fin 2) x0 x1
    concatenates_S50000x128_S50000x64_S50000x192_d1 (lidx_main_v1 (ix2 r q) (wTop k)) rfl (ix2 r k)
    (fun b => match b with | ⟨0, _⟩ => rfl | ⟨1, _⟩ => rfl)

/-- Among its last 64 entries sits the row of anchor distances. -/
theorem cat_anchors (x0 : FVec Ideal S50000x128 .f32) (x1 : FVec Ideal S50000x64 .f32)
    (r : Fin 50000) (q : Fin 128) (k : Fin 64) :
    val_main_v0 (F := Ideal) x0 x1 (lidx_main_v1 (ix2 r q) (wBot k)) = x1 (ix2 r k) := by
  unfold val_main_v0
  exact concatenate_pair_apply_right (t := S50000x192) (1 : Fin 2) x0 x1
    concatenates_S50000x128_S50000x64_S50000x192_d1 (lidx_main_v1 (ix2 r q) (wBot k)) rfl rfl (ix2 r k)
    (fun b => match b with | ⟨0, _⟩ => fun _ => rfl | ⟨1, _⟩ => fun h => absurd rfl h)
    (by show k.val + 128 = 128 + k.val; omega)

/-- The weight read by the contraction at step `k` of entry (r, q) is `W(k, q)`. -/
theorem weight_idx (r : Fin 50000) (q : Fin 128) (k : Fin 192) : ridx_main_v1 (ix2 r q) k = ix2 k q :=
  funext fun a => Fin.ext (by match a with | ⟨0, _⟩ => rfl | ⟨1, _⟩ => rfl)

/-- The bias read at entry (r, q), through its two broadcasts, is `b q`. -/
theorem bias_idx (r : Fin 50000) (q : Fin 128) : idx_main_v2 (idx_main_v3 (ix2 r q)) = ix1 q :=
  funext fun a => Fin.ext (by match a with | ⟨0, _⟩ => rfl)

/-- THE REFERENCE'S HIDDEN LAYER is `Cert.Hidden.layer` of the four float arguments. -/
theorem hidden_eq (x0 : FVec Ideal S50000x128 .f32) (x1 : FVec Ideal S50000x64 .f32)
    (x2 : FVec Ideal S192x128 .f32) (x3 : FVec Ideal S128 .f32) :
    val_main_v5 (F := Ideal) x0 x1 x2 x3 = layer x0 x1 x2 x3 := by
  funext i
  obtain ⟨r, q, rfl⟩ : ∃ (r : Fin 50000) (q : Fin 128), i = ix2 r q := ⟨i 0, i 1, eq_ix2 i⟩
  rw [layer_apply, val_main_v5_apply, val_main_v4_apply, val_main_v1_apply, val_main_v3_apply, val_main_v2_apply,
    val_main_call0_v0_apply, val_main_call0_cst_apply, contraction_split, bias_idx]
  unfold entry
  simp only [cat_features, cat_anchors, weight_idx, Ideal.maximumf_def, Ideal.addf_def, Ideal.ofBits_def]

end Cert.ReferenceIdeal.RefHidden

end
-- ==== Proof.RefTail.lean ====
/-
  The reference program's result: the aggregation of ITS hidden layer.

  After its hidden layer the reference applies, operation for operation, the aggregation of `Cert.Aggregate` —
  the same index arithmetic, the same lookup, the same two sums from the same constants, the same division — to
  the hidden layer and the two index arguments; the one difference, a change of float format on the rows looked
  up, is the identity on extended reals.
-/
import proofs.«110895_j69793218560330_2_alg».proof.Proof.Gen.ReferenceIdeal.Read
import proofs.«110895_j69793218560330_2_alg».proof.Proof.Aggregate

noncomputable section

namespace Cert.ReferenceIdeal.RefTail

open Cert.ReferenceIdeal Cert.ReferenceIdeal.Gen Cert.ReferenceIdeal.Read Idealize.ShloMosaic

/-- The reference's result is the aggregation of its hidden layer over the two index arguments. -/
theorem result_eq (x0 : FVec Ideal S50000x128 .f32) (x1 : FVec Ideal S50000x64 .f32) (x2 : FVec Ideal S192x128 .f32)
    (x3 : FVec Ideal S128 .f32) (x4 x5 : IVec S800000 32) :
    val_main_v24 (F := Ideal) x0 x1 x2 x3 x4 x5 = Cert.Aggregate.mean (val_main_v5 (F := Ideal) x0 x1 x2 x3) x4 x5 := by
  unfold val_main_v24 val_main_v15 val_main_v12
  generalize val_main_v5 (F := Ideal) x0 x1 x2 x3 = h
  rfl

end Cert.ReferenceIdeal.RefTail

end
-- ==== Proof.lean ====
/-
  A graph layer: a linear map with bias and a maximum with zero applied to each node's 128 features and 64 anchor
  distances, followed by the mean of the resulting rows over each node's incoming edges.

  The kernel program computes the linear map in two parts — the features against the first 128 rows of the weight
  matrix, the anchor distances against its last 64 rows, in blocks of 2000 nodes — and adds the two; the reference
  concatenates features and anchor distances and contracts all 192 entries at once.  Over the extended reals
  every change of float format is the identity and a matrix product is the plain sum of products, so the two
  hidden layers differ only in how a sum of 192 terms is grouped: 128 + 64 against all at once.  Addition of
  extended reals is associative and commutative with no side condition, so the two hidden layers are equal for
  every input, finite or not (`Cert.Hidden`, `Cert.ReferenceIdeal.RefHidden`, `Cert.KernelIdeal.Array`).
  The aggregation over the edges is the same composition of host operations in both programs
  (`Cert.Aggregate`), applied to equal hidden layers and equal index arrays, hence gives equal results.

  The kernel program's frames are its generated frame certificates; the reference's frame is its run with the result
  dropped; the idealization rewrote nothing, so `preserves` is `True`.
-/
import proofs.«110895_j69793218560330_2_alg».proof.Defs
import proofs.«110895_j69793218560330_2_alg».proof.Proof.Gen.Kernel
import proofs.«110895_j69793218560330_2_alg».proof.Proof.Gen.Kernel.Skeleton
import proofs.«110895_j69793218560330_2_alg».proof.Proof.Gen.Kernel.Launch
import proofs.«110895_j69793218560330_2_alg».proof.Proof.Gen.Kernel.Points
import proofs.«110895_j69793218560330_2_alg».proof.Proof.Gen.Kernel.Frame
import proofs.«110895_j69793218560330_2_alg».proof.Proof.Gen.KernelIdeal
import proofs.«110895_j69793218560330_2_alg».proof.Proof.Gen.KernelIdeal.Skeleton
import proofs.«110895_j69793218560330_2_alg».proof.Proof.Gen.KernelIdeal.Launch
import proofs.«110895_j69793218560330_2_alg».proof.Proof.Gen.KernelIdeal.Points
import proofs.«110895_j69793218560330_2_alg».proof.Proof.Gen.KernelIdeal.Frame
import proofs.«110895_j69793218560330_2_alg».proof.Proof.Gen.ReferenceIdeal
import proofs.«110895_j69793218560330_2_alg».proof.Proof.Gen.ReferenceIdeal.Run
import proofs.«110895_j69793218560330_2_alg».proof.Proof.Gen.ReferenceIdeal.Read
import proofs.«110895_j69793218560330_2_alg».proof.Proof.Gen.Pre_finite_inputs
import proofs.«110895_j69793218560330_2_alg».proof.Proof.KernelTail
import proofs.«110895_j69793218560330_2_alg».proof.Proof.RefHidden
import proofs.«110895_j69793218560330_2_alg».proof.Proof.RefTail
import Idealize.ShloMosaic.Adequacy
import Idealize.ShloMosaic.Init

noncomputable section

namespace Cert.Proof

open Idealize.ShloMosaic Idealize.ShloMosaic.TcCoe Idealize.SL.Sem

/-- The kernel program terminates, faults nowhere and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the aggregation of the hidden layer over the
    two index arrays: the kernel program by its run read through the region and the lines after it, the reference by
    its run read stage by stage, its hidden layer being the same function of the float arguments. -/
theorem algebraic : Cert.algebraic_KernelIdeal_ReferenceIdeal := by
  intro m ρ m' ρ' _ hagree
  refine ⟨fun c => Cert.Aggregate.mean (Cert.KernelIdeal.Array.hidden m c)
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine (Cert.ReferenceIdeal.Read.val_main_v24_eq _ _ _ _ _ _).trans ?_
  rw [Cert.ReferenceIdeal.RefTail.result_eq, Cert.ReferenceIdeal.RefHidden.hidden_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
